-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S256x128 : Shape := ⟨2, ![256, 128]⟩
abbrev S256x64 : Shape := ⟨2, ![256, 64]⟩
abbrev S256 : Shape := ⟨1, ![256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg8 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg8
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S50000x128 .f32) (main_arg1 : IVec S800000 32) (main_arg2 : IVec S800000 32) (main_arg3 : IVec S800000 32) (main_arg4 : IVec S800000 32) (main_arg5 : FVec F S256x128 .f32) (main_arg6 : FVec F S256x64 .f32) (main_arg7 : FVec F S256 .f32) (main_arg8 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg5
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256x64 .f32 := Host.absf main_arg6
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S256 .f32 := Host.absf main_arg7
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg8 main_v13 main_v16
-- ==== Kernel.lean ====
abbrev S50000x128 : Shape := ⟨2, ![50000, 128]⟩
abbrev S800000 : Shape := ⟨1, ![800000]⟩
abbrev S256x128 : Shape := ⟨2, ![256, 128]⟩
abbrev S256x64 : Shape := ⟨2, ![256, 64]⟩
abbrev S256 : Shape := ⟨1, ![256]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x256 : Shape := ⟨2, ![128, 256]⟩
abbrev S64x256 : Shape := ⟨2, ![64, 256]⟩
abbrev S1x256 : Shape := ⟨2, ![1, 256]⟩
abbrev S2000x128 : Shape := ⟨2, ![2000, 128]⟩
abbrev S2000x1 : Shape := ⟨2, ![2000, 1]⟩
abbrev S2000x64 : Shape := ⟨2, ![2000, 64]⟩
abbrev S2000x256 : Shape := ⟨2, ![2000, 256]⟩

abbrev nBuf : Space → Nat
  | .hbm => 79
  | .vmem => 13
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .i32⟩
  | .hbm, ⟨4, _⟩ => ⟨S800000, .i32⟩
  | .hbm, ⟨5, _⟩ => ⟨S256x128, .f32⟩
  | .hbm, ⟨6, _⟩ => ⟨S256x64, .f32⟩
  | .hbm, ⟨7, _⟩ => ⟨S256, .f32⟩
  | .hbm, ⟨8, _⟩ => ⟨S256, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S_, .f32⟩
  | .hbm, ⟨35, _⟩ => ⟨S50000, .f32⟩
  | .hbm, ⟨36, _⟩ => ⟨S50000, .i1⟩
  | .hbm, ⟨37, _⟩ => ⟨S50000, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S_, .f32⟩
  | .hbm, ⟨52, _⟩ => ⟨S800000, .f32⟩
  | .hbm, ⟨53, _⟩ => ⟨S_, .f32⟩
  | .hbm, ⟨54, _⟩ => ⟨S50000, .f32⟩
  | .hbm, ⟨55, _⟩ => ⟨S800000x1, .i32⟩
  | .hbm, ⟨56, _⟩ => ⟨S50000, .f32⟩
  | .hbm, ⟨57, _⟩ => ⟨S_, .f32⟩
  | .hbm, ⟨58, _⟩ => ⟨S50000, .f32⟩
  | .hbm, ⟨59, _⟩ => ⟨S50000, .f32⟩
  | .hbm, ⟨60, _⟩ => ⟨S50000x1, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000, .f32⟩
  | .hbm, ⟨65, _⟩ => ⟨S50000, .i1⟩
  | .hbm, ⟨66, _⟩ => ⟨S50000, .f32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S128x256, .f32⟩
  | .hbm, ⟨73, _⟩ => ⟨S128x256, .bf16⟩
  | .hbm, ⟨74, _⟩ => ⟨S64x256, .f32⟩
  | .hbm, ⟨75, _⟩ => ⟨S64x256, .bf16⟩
  | .hbm, ⟨76, _⟩ => ⟨S256, .f32⟩
  | .hbm, ⟨77, _⟩ => ⟨S1x256, .f32⟩
  | .hbm, ⟨78, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x1, .f32⟩
  | .local _ .vmem, ⟨7, _⟩ => ⟨S2000x1, .f32⟩
  | .local _ .vmem, ⟨8, _⟩ => ⟨S128x256, .bf16⟩
  | .local _ .vmem, ⟨9, _⟩ => ⟨S64x256, .bf16⟩
  | .local _ .vmem, ⟨10, _⟩ => ⟨S1x256, .f32⟩
  | .local _ .vmem, ⟨11, _⟩ => ⟨S2000x128, .f32⟩
  | .local _ .vmem, ⟨12, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_cst_9 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_10 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_11 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_12 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S50000_S50000x1 : S50000.ShapeCasts S50000x1
  transposes_S256x128_S128x256_1_0 : S256x128.Transposes [1, 0] S128x256
  bitsLt_bf16_f32 : FTy.bits .bf16 < FTy.bits .f32
  transposes_S256x64_S64x256_1_0 : S256x64.Transposes [1, 0] S64x256
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  slices_S2000x128_o0_0_S2000x64 : S2000x128.Slices ![0, 0] S2000x64
  slices_S2000x128_o0_64_S2000x64 : S2000x128.Slices ![0, 64] S2000x64
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  slices_S2000x256_o0_0_S2000x64 : S2000x256.Slices ![0, 0] S2000x64
  slices_S2000x256_o0_64_S2000x64 : S2000x256.Slices ![0, 64] S2000x64
  slices_S2000x256_o0_128_S2000x64 : S2000x256.Slices ![0, 128] S2000x64
  slices_S2000x256_o0_192_S2000x64 : S2000x256.Slices ![0, 192] S2000x64
  concatenates_S2000x64_S2000x64_S2000x128_d1 : Shape.Concatenates [S2000x64, S2000x64] S2000x128 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x256_S2000x256_1_0_0_1_n_n_wf : DotDims.WF S2000x128 S128x256 S2000x256 [1] [0] [0] [1] [] []
  dot_S2000x64_S64x256_S2000x256_1_0_0_1_n_n_wf : DotDims.WF S2000x64 S64x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S50000x1.size a
  hwx0_3 : ∀ i : grid0.Coords, EltTy.bits .f32 = 32 ∨ (Rect.block (s := S50000x1) S2000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S64x256.size a
  hwx0_5 : ∀ i : grid0.Coords, EltTy.bits .bf16 = 32 ∨ (Rect.block (s := S64x256) S64x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v40) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v47) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v49) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v51) S64x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v53) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v54) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S256x128 : Shape := ⟨2, ![256, 128]⟩
abbrev S256x64 : Shape := ⟨2, ![256, 64]⟩
abbrev S256 : Shape := ⟨1, ![256]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x64 : Shape := ⟨2, ![50000, 64]⟩
abbrev S128x256 : Shape := ⟨2, ![128, 256]⟩
abbrev S50000x256 : Shape := ⟨2, ![50000, 256]⟩
abbrev S1x256 : Shape := ⟨2, ![1, 256]⟩
abbrev S64x256 : Shape := ⟨2, ![64, 256]⟩

abbrev nBuf : Space → Nat
  | .hbm => 123
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .i32⟩
  | .hbm, ⟨4, _⟩ => ⟨S800000, .i32⟩
  | .hbm, ⟨5, _⟩ => ⟨S256x128, .f32⟩
  | .hbm, ⟨6, _⟩ => ⟨S256x64, .f32⟩
  | .hbm, ⟨7, _⟩ => ⟨S256, .f32⟩
  | .hbm, ⟨8, _⟩ => ⟨S256, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S_, .f32⟩
  | .hbm, ⟨35, _⟩ => ⟨S50000, .f32⟩
  | .hbm, ⟨36, _⟩ => ⟨S50000, .i1⟩
  | .hbm, ⟨37, _⟩ => ⟨S50000, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S_, .f32⟩
  | .hbm, ⟨52, _⟩ => ⟨S800000, .f32⟩
  | .hbm, ⟨53, _⟩ => ⟨S_, .f32⟩
  | .hbm, ⟨54, _⟩ => ⟨S50000, .f32⟩
  | .hbm, ⟨55, _⟩ => ⟨S800000x1, .i32⟩
  | .hbm, ⟨56, _⟩ => ⟨S50000, .f32⟩
  | .hbm, ⟨57, _⟩ => ⟨S_, .f32⟩
  | .hbm, ⟨58, _⟩ => ⟨S50000, .f32⟩
  | .hbm, ⟨59, _⟩ => ⟨S50000, .f32⟩
  | .hbm, ⟨60, _⟩ => ⟨S50000x1, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000, .f32⟩
  | .hbm, ⟨65, _⟩ => ⟨S50000, .i1⟩
  | .hbm, ⟨66, _⟩ => ⟨S50000, .f32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S50000x64, .f32⟩
  | .hbm, ⟨76, _⟩ => ⟨S50000x64, .f32⟩
  | .hbm, ⟨77, _⟩ => ⟨S128x256, .f32⟩
  | .hbm, ⟨78, _⟩ => ⟨S50000x256, .f32⟩
  | .hbm, ⟨79, _⟩ => ⟨S1x256, .f32⟩
  | .hbm, ⟨80, _⟩ => ⟨S50000x256, .f32⟩
  | .hbm, ⟨81, _⟩ => ⟨S50000x256, .f32⟩
  | .hbm, ⟨82, _⟩ => ⟨S64x256, .f32⟩
  | .hbm, ⟨83, _⟩ => ⟨S50000x256, .f32⟩
  | .hbm, ⟨84, _⟩ => ⟨S50000x256, .f32⟩
  | .hbm, ⟨85, _⟩ => ⟨S1x256, .f32⟩
  | .hbm, ⟨86, _⟩ => ⟨S50000x256, .f32⟩
  | .hbm, ⟨87, _⟩ => ⟨S50000x256, .f32⟩
  | .hbm, ⟨88, _⟩ => ⟨S50000x64, .f32⟩
  | .hbm, ⟨89, _⟩ => ⟨S50000x64, .f32⟩
  | .hbm, ⟨90, _⟩ => ⟨S50000x64, .f32⟩
  | .hbm, ⟨91, _⟩ => ⟨S50000x64, .f32⟩
  | .hbm, ⟨92, _⟩ => ⟨S50000x64, .f32⟩
  | .hbm, ⟨93, _⟩ => ⟨S50000x64, .f32⟩
  | .hbm, ⟨94, _⟩ => ⟨S_, .f32⟩
  | .hbm, ⟨95, _⟩ => ⟨S50000x64, .f32⟩
  | .hbm, ⟨96, _⟩ => ⟨S50000x64, .f32⟩
  | .hbm, ⟨97, _⟩ => ⟨S_, .f32⟩
  | .hbm, ⟨98, _⟩ => ⟨S50000x64, .f32⟩
  | .hbm, ⟨99, _⟩ => ⟨S50000x64, .f32⟩
  | .hbm, ⟨100, _⟩ => ⟨S50000x64, .f32⟩
  | .hbm, ⟨101, _⟩ => ⟨S50000x64, .f32⟩
  | .hbm, ⟨102, _⟩ => ⟨S50000x64, .f32⟩
  | .hbm, ⟨103, _⟩ => ⟨S_, .f32⟩
  | .hbm, ⟨104, _⟩ => ⟨S50000x64, .f32⟩
  | .hbm, ⟨105, _⟩ => ⟨S50000x64, .f32⟩
  | .hbm, ⟨106, _⟩ => ⟨S_, .f32⟩
  | .hbm, ⟨107, _⟩ => ⟨S50000x64, .f32⟩
  | .hbm, ⟨108, _⟩ => ⟨S50000x64, .f32⟩
  | .hbm, ⟨109, _⟩ => ⟨S50000x64, .f32⟩
  | .hbm, ⟨110, _⟩ => ⟨S50000x64, .f32⟩
  | .hbm, ⟨111, _⟩ => ⟨S50000x64, .f32⟩
  | .hbm, ⟨112, _⟩ => ⟨S50000x64, .f32⟩
  | .hbm, ⟨113, _⟩ => ⟨S50000x64, .f32⟩
  | .hbm, ⟨114, _⟩ => ⟨S_, .f32⟩
  | .hbm, ⟨115, _⟩ => ⟨S50000x64, .f32⟩
  | .hbm, ⟨116, _⟩ => ⟨S50000x64, .f32⟩
  | .hbm, ⟨117, _⟩ => ⟨S_, .f32⟩
  | .hbm, ⟨118, _⟩ => ⟨S50000x64, .f32⟩
  | .hbm, ⟨119, _⟩ => ⟨S50000x64, .f32⟩
  | .hbm, ⟨120, _⟩ => ⟨S50000x64, .f32⟩
  | .hbm, ⟨121, _⟩ => ⟨S50000x64, .f32⟩
  | .hbm, ⟨122, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_cst_9 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_10 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_11 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_12 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_13 : Ref sig .tc := ⟨.hbm, 94, rfl⟩
abbrev main_v70 : Ref sig .tc := ⟨.hbm, 95, rfl⟩
abbrev main_v71 : Ref sig .tc := ⟨.hbm, 96, rfl⟩
abbrev main_cst_14 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_15 : Ref sig .tc := ⟨.hbm, 103, rfl⟩
abbrev main_v77 : Ref sig .tc := ⟨.hbm, 104, rfl⟩
abbrev main_v78 : Ref sig .tc := ⟨.hbm, 105, rfl⟩
abbrev main_cst_16 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_17 : Ref sig .tc := ⟨.hbm, 114, rfl⟩
abbrev main_v86 : Ref sig .tc := ⟨.hbm, 115, rfl⟩
abbrev main_v87 : Ref sig .tc := ⟨.hbm, 116, rfl⟩
abbrev main_cst_18 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S50000x128_S50000x64_0_0 : S50000x128.Slices ![0, 0] S50000x64
  slices_S50000x128_S50000x64_0_64 : S50000x128.Slices ![0, 64] S50000x64
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  transposes_S256x64_S64x256_1_0 : S256x64.Transposes [1, 0] S64x256
  slices_S50000x256_S50000x64_0_0 : S50000x256.Slices ![0, 0] S50000x64
  slices_S50000x256_S50000x64_0_64 : S50000x256.Slices ![0, 64] S50000x64
  slices_S50000x256_S50000x64_0_128 : S50000x256.Slices ![0, 128] S50000x64
  slices_S50000x256_S50000x64_0_192 : S50000x256.Slices ![0, 192] S50000x64
  bcast_S_S50000x64 : S_.BroadcastsInDim S50000x64 (![] : Fin 0 → Fin S50000x64.rank)
  concatenates_S50000x64_S50000x64_S50000x128_d1 : Shape.Concatenates [S50000x64, S50000x64] S50000x128 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  dot_S50000x64_S64x256_S50000x256_1_0_0_1_n_n_wf : DotDims.WF S50000x64 S64x256 S50000x256 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf

class Facts : Prop extends Facts₀ where

variable [Facts]
-- ==== Proof.CellSpec.lean ====
/-
  The node update this certificate is about, as one function of the argument arrays.

  Every node p of the graph has a feature row x = feat[p, :] (128 numbers) and a message row
  s = (a[p, :] + b[p, :]) / n[p], where a and b are the means of the neighbours' features along the two edge
  types and n counts the edge types that delivered a message (at least 1).  The first half of s is the incoming
  hidden state h, the second half the incoming cell state r.  One cell step of a long short-term memory unit:

      gates  = x · W_ihᵀ + h · W_hhᵀ + bias                      (256 columns: input, forget, candidate, output)
      cell   = σ(forget) · r + σ(input) · tanh(candidate)        (64 columns)
      hidden = σ(output) · tanh(cell)                            (64 columns)

  and the node's output row is hidden followed by cell.  Everything is on the extended reals: σ is
  1 / (1 + e^(-z)) with its limits 0 and 1 at the infinities, and the quotient is the total quotient of the
  ideal instance.  Nothing here mentions a program.
-/
import Idealize.ShloMosaic.PureOps.Ideal
import Idealize.ShloMosaic.Lib.ValueIdx
import Idealize.ShloMosaic.PureOps.IdealRules

noncomputable section

open scoped BigOperators

namespace Cert.CellSpec

open Idealize.ShloMosaic Idealize.ShloMosaic.ValueIdx

/-- Column `o + j` of the 256 gate columns, for `j` in a band of 64 starting at `o`. -/
abbrev gcol (o : Nat) (ho : o + 64 ≤ 256) (j : Fin 64) : Fin 256 := ⟨o + j.val, by have := j.isLt; omega⟩

/-- Column `j` of the first half of a 128-column row. -/
abbrev lo (j : Fin 64) : Fin 128 := ⟨j.val, by have := j.isLt; omega⟩

/-- Column `64 + j` of a 128-column row: the second half. -/
abbrev hi (j : Fin 64) : Fin 128 := ⟨64 + j.val, by have := j.isLt; omega⟩

/-- The message entry: the sum of the two per-edge-type means over the number of active edge types. -/
def msg (a b : Fin 128 → EReal) (n : EReal) (j : Fin 128) : EReal := Ideal.div (a j + b j) n

/-- A node's gate pre-activation in column `c`: its feature row against row `c` of the input weights, its incoming
    hidden state against row `c` of the recurrent weights, and the bias. -/
def gate (x : Fin 128 → EReal) (h : Fin 64 → EReal) (wih : Fin 256 → Fin 128 → EReal) (whh : Fin 256 → Fin 64 → EReal)
    (bias : Fin 256 → EReal) (c : Fin 256) : EReal :=
  (∑ k : Fin 128, x k * wih c k) + (∑ k : Fin 64, h k * whh c k) + bias c

/-- The new cell state from the gates `g` and the incoming cell state `r`: forget · r + input · candidate. -/
def cell (g : Fin 256 → EReal) (r : Fin 64 → EReal) (j : Fin 64) : EReal :=
  Ideal.logistic (g (gcol 64 (by decide) j)) * r j
    + Ideal.logistic (g (gcol 0 (by decide) j)) * Ideal.tanh (g (gcol 128 (by decide) j))

/-- The new hidden state: output gate · tanh of the new cell state. -/
def hidden (g : Fin 256 → EReal) (r : Fin 64 → EReal) (j : Fin 64) : EReal :=
  Ideal.logistic (g (gcol 192 (by decide) j)) * Ideal.tanh (cell g r j)

/-- A node's output row: the new hidden state in columns 0–63, the new cell state in columns 64–127. -/
def outRow (g : Fin 256 → EReal) (r : Fin 64 → EReal) (q : Fin 128) : EReal :=
  if hq : q.val < 64 then hidden g r ⟨q.val, hq⟩ else cell g r ⟨q.val - 64, by have := q.isLt; omega⟩

/-- One node's update from its rows: `x` its features, `a`, `b` the two means, `n` the active count. -/
def node (x a b : Fin 128 → EReal) (n : EReal) (wih : Fin 256 → Fin 128 → EReal) (whh : Fin 256 → Fin 64 → EReal)
    (bias : Fin 256 → EReal) (q : Fin 128) : EReal :=
  outRow (gate x (fun k => msg a b n (lo k)) wih whh bias) (fun j => msg a b n (hi j)) q

/-- The whole result at node `p`, column `q`, from the arrays: features and the two means [50000, 128], the active
    counts [50000], the weights [256, 128] and [256, 64] and the two bias vectors [256] (added). -/
def resultAt (feat a b : (⟨2, ![50000, 128]⟩ : Shape).Idx → EReal) (n : (⟨1, ![50000]⟩ : Shape).Idx → EReal)
    (wih : (⟨2, ![256, 128]⟩ : Shape).Idx → EReal) (whh : (⟨2, ![256, 64]⟩ : Shape).Idx → EReal)
    (b1 b2 : (⟨1, ![256]⟩ : Shape).Idx → EReal) (p : Fin 50000) (q : Fin 128) : EReal :=
  node (fun k => feat (ix2 p k)) (fun k => a (ix2 p k)) (fun k => b (ix2 p k)) (n (ix1 p))
    (fun c k => wih (ix2 c k)) (fun c k => whh (ix2 c k)) (fun c => b1 (ix1 c) + b2 (ix1 c)) q

/-- The whole result array. -/
def result (feat a b : (⟨2, ![50000, 128]⟩ : Shape).Idx → EReal) (n : (⟨1, ![50000]⟩ : Shape).Idx → EReal)
    (wih : (⟨2, ![256, 128]⟩ : Shape).Idx → EReal) (whh : (⟨2, ![256, 64]⟩ : Shape).Idx → EReal)
    (b1 b2 : (⟨1, ![256]⟩ : Shape).Idx → EReal) : (⟨2, ![50000, 128]⟩ : Shape).Idx → EReal :=
  fun i => resultAt feat a b n wih whh b1 b2 ⟨(i 0).val, idx2_lt0 i⟩ ⟨(i 1).val, idx2_lt1 i⟩

theorem result_ix2 (feat a b : (⟨2, ![50000, 128]⟩ : Shape).Idx → EReal) (n : (⟨1, ![50000]⟩ : Shape).Idx → EReal)
    (wih : (⟨2, ![256, 128]⟩ : Shape).Idx → EReal) (whh : (⟨2, ![256, 64]⟩ : Shape).Idx → EReal)
    (b1 b2 : (⟨1, ![256]⟩ : Shape).Idx → EReal) (p : Fin 50000) (q : Fin 128) :
    result feat a b n wih whh b1 b2 (ix2 p q) = resultAt feat a b n wih whh b1 b2 p q := rfl

/-- An output column below 64 is a hidden-state column. -/
theorem outRow_lo (g : Fin 256 → EReal) (r : Fin 64 → EReal) (j : Fin 64) : outRow g r (lo j) = hidden g r j := by
  unfold outRow
  rw [dif_pos (show (lo j).val < 64 from j.isLt)]

/-- An output column from 64 on is a cell-state column. -/
theorem outRow_hi (g : Fin 256 → EReal) (r : Fin 64 → EReal) (j : Fin 64) : outRow g r (hi j) = cell g r j := by
  unfold outRow
  rw [dif_neg (show ¬ (hi j).val < 64 from by show ¬ 64 + j.val < 64; omega)]
  exact congrArg (cell g r) (Fin.ext (by show 64 + j.val - 64 = j.val; omega))

/-- Every column of a 128-column row is in the first half or the second. -/
theorem col_cases (q : Fin 128) : (∃ j : Fin 64, q = lo j) ∨ (∃ j : Fin 64, q = hi j) := by
  by_cases hq : q.val < 64
  · exact Or.inl ⟨⟨q.val, hq⟩, Fin.ext rfl⟩
  · exact Or.inr ⟨⟨q.val - 64, by have := q.isLt; omega⟩, Fin.ext (by show q.val = 64 + (q.val - 64); omega)⟩

/-- The float word of 1.0 denotes 1. -/
theorem one_word : Ideal.ofBits .f32 0x3F800000#32 = 1 := IdealRules.sign_bit.ideal_onePat .f32

end Cert.CellSpec

end
-- ==== Proof.LibMatRows.lean ====
/-
  A plain matrix product read at one entry.

  For operands of shapes [M, K] and [K, N] contracted over the left's columns and the right's rows, entry (p, c)
  of the product is the sum over k of left (p, k) times right (k, c).  At the ideal instance this holds both for a
  kernel's product accumulated into a zero array and for a host product, whatever precision or schedule is named:
  neither rounding nor summation order is left.  Everything is generic in the extents M, K, N.
-/
import Idealize.ShloMosaic.PureOps.Ideal
import Idealize.ShloMosaic.PureOps.Ideal.Laws
import Idealize.ShloMosaic.Lib.ValueIdx

noncomputable section

open scoped BigOperators

namespace Idealize.ShloMosaic.MatRows

open Idealize.ShloMosaic Idealize.ShloMosaic.ValueIdx

variable {M K N : Nat}

/-- The contraction index set of a plain product is its one coordinate, ranging over the shared extent. -/
abbrev contrFin (M K N : Nat) : (DotDims.plain M K N).contr.Idx ≃ Fin K :=
  contrEquiv1 (DotDims.plain M K N) K rfl rfl

/-- At result entry (p, c) and contraction position k the left operand is read at (p, k). -/
theorem plain_lhsIdx (p : Fin M) (c : Fin N) (k : Fin K) :
    (DotDims.plain M K N).lhsIdx (ix2 p c) ((contrFin M K N).symm k) = ix2 p k := by
  funext a
  refine Fin.ext ?_
  match a with
  | ⟨0, _⟩ => rfl
  | ⟨1, _⟩ =>
    exact ((DotDims.plain M K N).lhsIdx_val_of_single (cl := (1 : Fin 2)) rfl (ix2 p c) _).trans
      (contrEquiv1_symm_val (DotDims.plain M K N) K rfl rfl k)

/-- At result entry (p, c) and contraction position k the right operand is read at (k, c). -/
theorem plain_rhsIdx (p : Fin M) (c : Fin N) (k : Fin K) :
    (DotDims.plain M K N).rhsIdx (ix2 p c) ((contrFin M K N).symm k) = ix2 k c := by
  funext a
  refine Fin.ext ?_
  match a with
  | ⟨0, _⟩ =>
    exact ((DotDims.plain M K N).rhsIdx_val_of_single (cr := (0 : Fin 2)) rfl (ix2 p c) _).trans
      (contrEquiv1_symm_val (DotDims.plain M K N) K rfl rfl k)
  | ⟨1, _⟩ => rfl

/-- The contraction sum of a plain product, re-indexed by the shared extent. -/
theorem plain_sum (l : (⟨2, ![M, K]⟩ : Shape).Idx → EReal) (r : (⟨2, ![K, N]⟩ : Shape).Idx → EReal) (p : Fin M) (c : Fin N) :
    ∑ k : (DotDims.plain M K N).contr.Idx,
        l ((DotDims.plain M K N).lhsIdx (ix2 p c) k) * r ((DotDims.plain M K N).rhsIdx (ix2 p c) k)
      = ∑ k : Fin K, l (ix2 p k) * r (ix2 k c) := by
  rw [← Equiv.sum_comp (contrFin M K N).symm]
  exact Finset.sum_congr rfl fun k _ => by rw [plain_lhsIdx, plain_rhsIdx]

/-- A kernel's product into the zero array, at entry (p, c). -/
theorem matmul_plain_apply {φ₁ φ₂ : FTy} (prec : Option ContractPrecision)
    (l : FVec Ideal ⟨2, ![M, K]⟩ φ₁) (r : FVec Ideal ⟨2, ![K, N]⟩ φ₂) (p : Fin M) (c : Fin N) :
    matmul (DotDims.plain M K N) prec l r (constant (F := Ideal) ⟨2, ![M, N]⟩ .f32 0x00000000#32) (ix2 p c)
      = ∑ k : Fin K, l (ix2 p k) * r (ix2 k c) :=
  (Ideal.matmul_constant_zero_apply (DotDims.plain M K N) prec l r (ix2 p c)).trans (plain_sum l r p c)

/-- A host product, at entry (p, c). -/
theorem dotGeneral_plain_apply {φ₁ φ₂ : FTy} (prec : Option ContractPrecision)
    (l : FVec Ideal ⟨2, ![M, K]⟩ φ₁) (r : FVec Ideal ⟨2, ![K, N]⟩ φ₂) (p : Fin M) (c : Fin N) :
    (Host.dotGeneral (F := Ideal) (DotDims.plain M K N) prec l r : FVec Ideal ⟨2, ![M, N]⟩ .f32) (ix2 p c)
      = ∑ k : Fin K, l (ix2 p k) * r (ix2 k c) :=
  (Ideal.dotGeneral_apply (DotDims.plain M K N) prec _ l r (ix2 p c)).trans (plain_sum l r p c)

end Idealize.ShloMosaic.MatRows

end
-- ==== Proof.Payload.lean ====
/-
  The kernel body's stored value, read at one entry.

  The body of the node-update kernel loads a block of 2000 feature rows, the matching blocks of the two
  neighbourhood means and of the active counts, the two weight matrices (already transposed: input weights
  [128, 256], recurrent weights [64, 256]) and the bias row [1, 256], and stores one [2000, 128] block.
  Entry (r, q) of the stored block is the node update `CellSpec.node` of row r of each block: the two matrix
  products into zero are plain sums, the narrowing of their operands is the identity on the extended reals, the
  bias row is repeated down the rows, the four gate bands are column slices, and the stored block is the hidden
  state followed by the cell state.

  The stored value is cut into four named blocks, each a function of the blocks before it: the message block
  (a + b) / n with the count column repeated along each row; the gate block x · W_ih + h · W_hh + bias with h the
  first 64 columns of the message block; the cell block σ(forget) · r + σ(input) · tanh(candidate) with r the last
  64 columns of the message block; the hidden block σ(output) · tanh(cell).  The stored value is these by
  unfolding.  Each block is then read at one entry of row r: every operation in it is either pointwise or moves
  one entry to one entry, so no algebra is used, and the grouping of the gate sum is the specification's.  The
  stored block's column q is a hidden column when q < 64 and a cell column otherwise.
-/
import proofs.«131560_j21655225106656_2_alg».proof.Proof.Gen.KernelIdeal.Skeleton
import proofs.«131560_j21655225106656_2_alg».proof.Proof.CellSpec
import proofs.«131560_j21655225106656_2_alg».proof.Proof.LibMatRows
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## Layout operations read at one entry, for any extents -/

section Layout
variable {α : Type}

/-- A column [a, 1] repeated along b columns: entry (p, c) is the column's entry (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two matrices of R rows laid side by side along the columns: a column below the first extent reads the first
    matrix at the same column. -/
theorem concat2_apply_fst {R K1 K2 K : ℕ}
    (h : Shape.Concatenates [(⟨2, ![R, K1]⟩ : Shape), ⟨2, ![R, K2]⟩] ⟨2, ![R, K]⟩ (1 : Fin 2))
    (x1 : (⟨2, ![R, K1]⟩ : Shape).Idx → α) (x2 : (⟨2, ![R, K2]⟩ : Shape).Idx → α)
    (r : Fin R) (k : Fin K1) (q : Fin K) (hq : q.val = k.val) :
    concatenate ⟨2, ![R, K]⟩ 1 [⟨_, x1⟩, ⟨_, x2⟩] h (ix2 r q) = x1 (ix2 r k) :=
  concatenate_pair_apply_left (t := ⟨2, ![R, K]⟩) (1 : Fin 2) x1 x2 h (ix2 r q) rfl (ix2 r k) (fun b => by
    match b with
    | ⟨0, _⟩ => rfl
    | ⟨1, _⟩ => exact hq.symm)

/-- Two matrices of R rows laid side by side along the columns: a column from the first extent on reads the
    second matrix at that column less the first extent. -/
theorem concat2_apply_snd {R K1 K2 K : ℕ}
    (h : Shape.Concatenates [(⟨2, ![R, K1]⟩ : Shape), ⟨2, ![R, K2]⟩] ⟨2, ![R, K]⟩ (1 : Fin 2))
    (x1 : (⟨2, ![R, K1]⟩ : Shape).Idx → α) (x2 : (⟨2, ![R, K2]⟩ : Shape).Idx → α)
    (r : Fin R) (k : Fin K2) (q : Fin K) (hq : q.val = K1 + k.val) :
    concatenate ⟨2, ![R, K]⟩ 1 [⟨_, x1⟩, ⟨_, x2⟩] h (ix2 r q) = x2 (ix2 r k) :=
  concatenate_pair_apply_right (t := ⟨2, ![R, K]⟩) (1 : Fin 2) x1 x2 h (ix2 r q) rfl rfl (ix2 r k)
    (fun b hb => by
      match b, hb with
      | ⟨0, _⟩, _ => rfl
      | ⟨1, _⟩, hb => exact absurd rfl hb)
    (by show k.val + K1 = q.val; omega)

end Layout

/-! ## The two pointwise unary operations at one entry -/

/-- The logistic function of a block, at an entry, is the logistic function of the entry. -/
theorem logistic_apply {s : Shape} {φ : FTy} (v : FVec Ideal s φ) (i : s.Idx) :
    logistic v i = Ideal.logistic (v i) := rfl

/-- The hyperbolic tangent of a block, at an entry, is the hyperbolic tangent of the entry. -/
theorem tanh_apply {s : Shape} {φ : FTy} (v : FVec Ideal s φ) (i : s.Idx) :
    tanh v i = Ideal.tanh (v i) := rfl

/-! ## The two products' dimension records are the plain M×K by K×N ones -/

theorem dot128_eq : dot_S2000x128_S128x256_S2000x256_1_0_0_1_n_n = DotDims.plain 2000 128 256 := rfl

theorem dot64_eq : dot_S2000x64_S64x256_S2000x256_1_0_0_1_n_n = DotDims.plain 2000 64 256 := rfl

/-! ## The four blocks -/

/-- The message block: the sum of the two mean blocks over the count column repeated along each row. -/
def msgBlk (x1 x2 : FVec Ideal S2000x128 .f32) (x3 : FVec Ideal S2000x1 .f32) : FVec Ideal S2000x128 .f32 :=
  divf
    (addf (shapeCast S2000x128 x1 shapeCasts_S2000x128_S2000x128) (shapeCast S2000x128 x2 shapeCasts_S2000x128_S2000x128))
    (broadcastTo S2000x128 (shapeCast S2000x1 x3 shapeCasts_S2000x1_S2000x1) broadcasts_S2000x1_S2000x128)

/-- The gate block from the feature block x0 and a message block m: x0 against the input weights, the first 64
    columns of m against the recurrent weights, and the bias row repeated down the rows. -/
def gateBlk (x0 m : FVec Ideal S2000x128 .f32) (x4 : FVec Ideal S128x256 .bf16) (x5 : FVec Ideal S64x256 .bf16)
    (x6 : FVec Ideal S1x256 .f32) : FVec Ideal S2000x256 .f32 :=
  addf
    (addf
      (matmul dot_S2000x128_S128x256_S2000x256_1_0_0_1_n_n none (truncf .bf16 x0 bitsLt_bf16_f32)
        (shapeCast S128x256 x4 shapeCasts_S128x256_S128x256) (constant (F := Ideal) S2000x256 .f32 0x00000000#32))
      (matmul dot_S2000x64_S64x256_S2000x256_1_0_0_1_n_n none
        (truncf .bf16 (extractStridedSlice S2000x64 ![0, 0] m slices_S2000x128_o0_0_S2000x64) bitsLt_bf16_f32)
        (shapeCast S64x256 x5 shapeCasts_S64x256_S64x256) (constant (F := Ideal) S2000x256 .f32 0x00000000#32)))
    (broadcastTo S2000x256 (shapeCast S1x256 x6 shapeCasts_S1x256_S1x256) broadcasts_S1x256_S2000x256)

/-- The cell block from a gate block G and a message block m: σ(forget band) · (last 64 columns of m)
    + σ(input band) · tanh(candidate band). -/
def cellBlk (G : FVec Ideal S2000x256 .f32) (m : FVec Ideal S2000x128 .f32) : FVec Ideal S2000x64 .f32 :=
  addf
    (mulf (logistic (extractStridedSlice S2000x64 ![0, 64] G slices_S2000x256_o0_64_S2000x64))
      (extractStridedSlice S2000x64 ![0, 64] m slices_S2000x128_o0_64_S2000x64))
    (mulf (logistic (extractStridedSlice S2000x64 ![0, 0] G slices_S2000x256_o0_0_S2000x64))
      (tanh (extractStridedSlice S2000x64 ![0, 128] G slices_S2000x256_o0_128_S2000x64)))

/-- The hidden block: σ(output band) · tanh(cell block). -/
def hiddenBlk (G : FVec Ideal S2000x256 .f32) (m : FVec Ideal S2000x128 .f32) : FVec Ideal S2000x64 .f32 :=
  mulf (logistic (extractStridedSlice S2000x64 ![0, 192] G slices_S2000x256_o0_192_S2000x64)) (tanh (cellBlk G m))

/-- The stored value is the hidden block followed by the cell block, over the gate block of the message block:
    the body's chain of operations, with each intermediate value substituted where it is used. -/
theorem pay_eq (x0 x1 x2 : FVec Ideal S2000x128 .f32) (x3 : FVec Ideal S2000x1 .f32) (x4 : FVec Ideal S128x256 .bf16)
    (x5 : FVec Ideal S64x256 .bf16) (x6 : FVec Ideal S1x256 .f32) :
    k0_pay1 (F := Ideal) x0 x1 x2 x3 x4 x5 x6
      = concatenate S2000x128 1
          [⟨S2000x64, hiddenBlk (gateBlk x0 (msgBlk x1 x2 x3) x4 x5 x6) (msgBlk x1 x2 x3)⟩,
           ⟨S2000x64, cellBlk (gateBlk x0 (msgBlk x1 x2 x3) x4 x5 x6) (msgBlk x1 x2 x3)⟩]
          concatenates_S2000x64_S2000x64_S2000x128_d1 := rfl

/-! ## Each block at one entry of row r -/

/-- Entry (r, k) of the message block is the message entry k of row r. -/
theorem msgBlk_apply (x1 x2 : FVec Ideal S2000x128 .f32) (x3 : FVec Ideal S2000x1 .f32) (r : Fin 2000) (k : Fin 128) :
    msgBlk x1 x2 x3 (ix2 r k)
      = Cert.CellSpec.msg (fun k => x1 (ix2 r k)) (fun k => x2 (ix2 r k)) (x3 (ix2 r (0 : Fin 1))) k := by
  unfold msgBlk Cert.CellSpec.msg
  rw [shapeCast_self, shapeCast_self, shapeCast_self, divf_apply, addf_apply, broadcastTo_a1_ab_apply]

/-- Entry (r, c) of the gate block is the gate pre-activation c of row r: the two products into zero are the sums
    over the shared extent, narrowing is the identity, and the hidden input is the first half of the message row. -/
theorem gateBlk_apply (x0 m : FVec Ideal S2000x128 .f32) (x4 : FVec Ideal S128x256 .bf16) (x5 : FVec Ideal S64x256 .bf16)
    (x6 : FVec Ideal S1x256 .f32) (r : Fin 2000) (c : Fin 256) :
    gateBlk x0 m x4 x5 x6 (ix2 r c)
      = Cert.CellSpec.gate (fun k => x0 (ix2 r k)) (fun k => m (ix2 r (Cert.CellSpec.lo k))) (fun c k => x4 (ix2 k c))
          (fun c k => x5 (ix2 k c)) (fun c => x6 (ix2 (0 : Fin 1) c)) c := by
  have h1 : matmul dot_S2000x128_S128x256_S2000x256_1_0_0_1_n_n none (truncf .bf16 x0 bitsLt_bf16_f32) x4
        (constant (F := Ideal) S2000x256 .f32 0x00000000#32) (ix2 r c)
      = ∑ k : Fin 128, x0 (ix2 r k) * x4 (ix2 k c) :=
    MatRows.matmul_plain_apply (M := 2000) (K := 128) (N := 256) none (truncf .bf16 x0 bitsLt_bf16_f32) x4 r c
  have h2 : matmul dot_S2000x64_S64x256_S2000x256_1_0_0_1_n_n none
        (truncf .bf16 (extractStridedSlice S2000x64 ![0, 0] m slices_S2000x128_o0_0_S2000x64) bitsLt_bf16_f32) x5
        (constant (F := Ideal) S2000x256 .f32 0x00000000#32) (ix2 r c)
      = ∑ k : Fin 64, m (ix2 r (Cert.CellSpec.lo k)) * x5 (ix2 k c) :=
    (MatRows.matmul_plain_apply (M := 2000) (K := 64) (N := 256) none
      (truncf .bf16 (extractStridedSlice S2000x64 ![0, 0] m slices_S2000x128_o0_0_S2000x64) bitsLt_bf16_f32) x5 r c).trans
      (Finset.sum_congr rfl fun k _ => congrArg (fun y : EReal => y * x5 (ix2 k c))
        (slice2_axis1_apply 0 m slices_S2000x128_o0_0_S2000x64 r k (Cert.CellSpec.lo k) (Nat.zero_add _).symm))
  have h3 : broadcastTo S2000x256 x6 broadcasts_S1x256_S2000x256 (ix2 r c) = x6 (ix2 (0 : Fin 1) c) :=
    broadcastTo_1b_ab_apply x6 broadcasts_S1x256_S2000x256 r c
  unfold gateBlk Cert.CellSpec.gate
  rw [shapeCast_self, shapeCast_self, shapeCast_self, addf_apply, addf_apply, h1, h2, h3]

/-- Entry (r, j) of the cell block is the new cell state j of row r: the bands of the gate row are its columns
    64 + j, j and 128 + j, and the incoming cell state is column 64 + j of the message row. -/
theorem cellBlk_apply (G : FVec Ideal S2000x256 .f32) (m : FVec Ideal S2000x128 .f32) (r : Fin 2000) (j : Fin 64) :
    cellBlk G m (ix2 r j)
      = Cert.CellSpec.cell (fun c => G (ix2 r c)) (fun j => m (ix2 r (Cert.CellSpec.hi j))) j := by
  unfold cellBlk Cert.CellSpec.cell
  rw [addf_apply, mulf_apply, mulf_apply, logistic_apply, logistic_apply, tanh_apply,
    slice2_axis1_apply 64 G slices_S2000x256_o0_64_S2000x64 r j (Cert.CellSpec.gcol 64 (by decide) j) rfl,
    slice2_axis1_apply 64 m slices_S2000x128_o0_64_S2000x64 r j (Cert.CellSpec.hi j) rfl,
    slice2_axis1_apply 0 G slices_S2000x256_o0_0_S2000x64 r j (Cert.CellSpec.gcol 0 (by decide) j) rfl,
    slice2_axis1_apply 128 G slices_S2000x256_o0_128_S2000x64 r j (Cert.CellSpec.gcol 128 (by decide) j) rfl]

/-- Entry (r, j) of the hidden block is the new hidden state j of row r: the output band is column 192 + j. -/
theorem hiddenBlk_apply (G : FVec Ideal S2000x256 .f32) (m : FVec Ideal S2000x128 .f32) (r : Fin 2000) (j : Fin 64) :
    hiddenBlk G m (ix2 r j)
      = Cert.CellSpec.hidden (fun c => G (ix2 r c)) (fun j => m (ix2 r (Cert.CellSpec.hi j))) j := by
  unfold hiddenBlk Cert.CellSpec.hidden
  rw [mulf_apply, logistic_apply, tanh_apply, cellBlk_apply,
    slice2_axis1_apply 192 G slices_S2000x256_o0_192_S2000x64 r j (Cert.CellSpec.gcol 192 (by decide) j) rfl]

/-! ## Row r of the gate block and of the message block, as the specification's functions -/

/-- Row r of the gate block of the message block is the gate row of the specification. -/
theorem gate_row (x0 x1 x2 : FVec Ideal S2000x128 .f32) (x3 : FVec Ideal S2000x1 .f32) (x4 : FVec Ideal S128x256 .bf16)
    (x5 : FVec Ideal S64x256 .bf16) (x6 : FVec Ideal S1x256 .f32) (r : Fin 2000) :
    (fun c : Fin 256 => gateBlk x0 (msgBlk x1 x2 x3) x4 x5 x6 (ix2 r c))
      = Cert.CellSpec.gate (fun k => x0 (ix2 r k))
          (fun k => Cert.CellSpec.msg (fun k => x1 (ix2 r k)) (fun k => x2 (ix2 r k)) (x3 (ix2 r (0 : Fin 1)))
            (Cert.CellSpec.lo k))
          (fun c k => x4 (ix2 k c)) (fun c k => x5 (ix2 k c)) (fun c => x6 (ix2 (0 : Fin 1) c)) := by
  funext c
  rw [gateBlk_apply]
  simp only [msgBlk_apply]

/-- The second half of row r of the message block is the incoming cell state of the specification. -/
theorem cell_row (x1 x2 : FVec Ideal S2000x128 .f32) (x3 : FVec Ideal S2000x1 .f32) (r : Fin 2000) :
    (fun j : Fin 64 => msgBlk x1 x2 x3 (ix2 r (Cert.CellSpec.hi j)))
      = fun j => Cert.CellSpec.msg (fun k => x1 (ix2 r k)) (fun k => x2 (ix2 r k)) (x3 (ix2 r (0 : Fin 1)))
          (Cert.CellSpec.hi j) :=
  funext fun j => msgBlk_apply x1 x2 x3 r (Cert.CellSpec.hi j)

/-- Entry (r, q) of the block the body stores is the node update of row r of the loaded blocks. -/
theorem pay_apply (x0 x1 x2 : FVec Ideal S2000x128 .f32) (x3 : FVec Ideal S2000x1 .f32) (x4 : FVec Ideal S128x256 .bf16)
    (x5 : FVec Ideal S64x256 .bf16) (x6 : FVec Ideal S1x256 .f32) (r : Fin 2000) (q : Fin 128) :
    k0_pay1 (F := Ideal) x0 x1 x2 x3 x4 x5 x6 (ix2 r q)
      = Cert.CellSpec.node (fun k => x0 (ix2 r k)) (fun k => x1 (ix2 r k)) (fun k => x2 (ix2 r k)) (x3 (ix2 r (0 : Fin 1)))
          (fun c k => x4 (ix2 k c)) (fun c k => x5 (ix2 k c)) (fun c => x6 (ix2 (0 : Fin 1) c)) q := by
  rw [pay_eq]
  unfold Cert.CellSpec.node
  rcases Cert.CellSpec.col_cases q with ⟨j, rfl⟩ | ⟨j, rfl⟩
  · rw [Cert.CellSpec.outRow_lo]
    refine (concat2_apply_fst (R := 2000) (K1 := 64) (K2 := 64) (K := 128) _ _ _ r j (Cert.CellSpec.lo j) rfl).trans ?_
    rw [hiddenBlk_apply, gate_row x0 x1 x2 x3 x4 x5 x6 r, cell_row x1 x2 x3 r]
  · rw [Cert.CellSpec.outRow_hi]
    refine (concat2_apply_snd (R := 2000) (K1 := 64) (K2 := 64) (K := 128) _ _ _ r j (Cert.CellSpec.hi j) rfl).trans ?_
    rw [cellBlk_apply, gate_row x0 x1 x2 x3 x4 x5 x6 r, cell_row x1 x2 x3 r]

end Cert.KernelIdeal.Payload

end
-- ==== Proof.KernelEntry.lean ====
/-
  What the node-update region finds in the arrays its windows stage.

  Before the region the program computes, on the host, for each edge type the mean of the source features over the
  edges arriving at each node (a gather of feature rows by source index, a scatter-add by destination index, divided
  by the number of arriving edges clamped below by 1) and the number of edge types with at least one arriving edge,
  clamped below by 1; it transposes the two weight matrices and adds the two bias vectors.  The means and the count
  are carried here as two named functions of the argument arrays, `mean` and `count`, and never opened: the
  reference computes them by the same operations.  The window arrays at region entry are then
      window 1, 2 : mean of the features along edge type 0, 1        [50000, 128]
      window 3    : count, as a column                                [50000, 1]
      window 4, 5 : the transposed weights (narrowed: the identity)   [128, 256], [64, 256]
      window 6    : the sum of the two bias vectors, as a row         [1, 256]
  and window 0 is the feature array itself.
-/
import proofs.«131560_j21655225106656_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

/-- The mean of the source features over the edges of one type arriving at each node: gather by source, scatter-add
    by destination, over the arriving-edge count clamped below by 1. -/
def mean (feat : FVec Ideal S50000x128 .f32) (src dst : IVec S800000 32) : FVec Ideal S50000x128 .f32 :=
  (Host.divf (Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (Host.gather gather_S50000x128_S800000x1_S800000x128_1_0_n_n_0_1_1128 feat (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))) (broadcastInDim S50000x128 ![0, 1] bcast_S50000x1_S50000x128_0_1 (broadcastInDim S50000x1 ![0] bcast_S50000_S50000x1_0 (maximumf (Host.scatterAdd scatter_S50000_S800000x1_S800000_n_0_0_1 (broadcastInDim S50000 ![] bcast_S_S50000 (constant S_ .f32 0x00000000#32)) (broadcastInDim S800000x1 ![0] bcast_S800000_S800000x1_0 dst) (broadcastInDim S800000 ![] bcast_S_S800000 (constant S_ .f32 0x3F800000#32))) (broadcastInDim S50000 ![] bcast_S_S50000 (constant S_ .f32 0x3F800000#32))))))

/-- The number of edge types with an arriving edge at each node, clamped below by 1. -/
def count (dst0 dst1 : IVec S800000 32) : FVec Ideal S50000 .f32 :=
  (maximumf (addf (uitofp .f32 (cmpf (F := Ideal) .ogt (Host.scatterAdd scatter_S50000_S800000x1_S800000_n_0_0_1 (broadcastInDim S50000 ![] bcast_S_S50000 (constant S_ .f32 0x00000000#32)) (broadcastInDim S800000x1 ![0] bcast_S800000_S800000x1_0 dst0) (broadcastInDim S800000 ![] bcast_S_S800000 (constant S_ .f32 0x3F800000#32))) (broadcastInDim S50000 ![] bcast_S_S50000 (constant S_ .f32 0x00000000#32)))) (uitofp .f32 (cmpf (F := Ideal) .ogt (Host.scatterAdd scatter_S50000_S800000x1_S800000_n_0_0_1 (broadcastInDim S50000 ![] bcast_S_S50000 (constant S_ .f32 0x00000000#32)) (broadcastInDim S800000x1 ![0] bcast_S800000_S800000x1_0 dst1) (broadcastInDim S800000 ![] bcast_S_S800000 (constant S_ .f32 0x3F800000#32))) (broadcastInDim S50000 ![] bcast_S_S50000 (constant S_ .f32 0x00000000#32))))) (broadcastInDim S50000 ![] bcast_S_S50000 (constant S_ .f32 0x3F800000#32)))

variable (m : (ℓ : Loc nD τ sig) → Buf (Elt Ideal) ℓ)

set_option maxHeartbeats 8000000 in
/-- Window 1's array at region entry: the mean along edge type 0. -/
theorem V_mean0 (c : Dev nD) :
    (V m c main_v18 : S50000x128.Idx → EReal)
      = mean (m ((c : Thread nD τ).loc main_arg0)) (m ((c : Thread nD τ).loc main_arg1)) (m ((c : Thread nD τ).loc main_arg2)) := by
  show StableHlo.after hostOps0 (fun b => m (c, b)) (Proc.devRef .tc main_v18) = _
  simp only [hostOps0]
  after_results_simp <;> rfl

set_option maxHeartbeats 8000000 in
/-- Window 2's array at region entry: the mean along edge type 1. -/
theorem V_mean1 (c : Dev nD) :
    (V m c main_v40 : S50000x128.Idx → EReal) = mean (m ((c : Thread nD τ).loc main_arg0)) (m ((c : Thread nD τ).loc main_arg3)) (m ((c : Thread nD τ).loc main_arg4)) := by
  show StableHlo.after hostOps0 (fun b => m (c, b)) (Proc.devRef .tc main_v40) = _
  simp only [hostOps0]
  after_results_simp <;> rfl

set_option maxHeartbeats 8000000 in
/-- Window 3's array at region entry: the count vector laid out as a column. -/
theorem V_count (c : Dev nD) :
    (V m c main_v47 : S50000x1.Idx → EReal)
      = shapeCast S50000x1 (count (m ((c : Thread nD τ).loc main_arg2)) (m ((c : Thread nD τ).loc main_arg4))) shapeCasts_S50000_S50000x1 := by
  show StableHlo.after hostOps0 (fun b => m (c, b)) (Proc.devRef .tc main_v47) = _
  simp only [hostOps0]
  after_results_simp <;> rfl

/-- A vector of N entries laid out as a column [N, 1]: entry (p, 0) is entry p. -/
theorem column_apply {α : Type} {N : Nat} (x : (⟨1, ![N]⟩ : Shape).Idx → α) (h : (⟨1, ![N]⟩ : Shape).ShapeCasts ⟨2, ![N, 1]⟩)
    (p : Fin N) (u : Fin 1) : shapeCast ⟨2, ![N, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The count column at node `p`. -/
theorem V_count_apply (c : Dev nD) (p : Fin 50000) :
    (V m c main_v47 : S50000x1.Idx → EReal) (ix2 p (0 : Fin 1)) = count (m ((c : Thread nD τ).loc main_arg2)) (m ((c : Thread nD τ).loc main_arg4)) (ix1 p) := by
  rw [V_count]
  exact column_apply _ shapeCasts_S50000_S50000x1 p 0

end Cert.KernelIdeal.Entry

end
-- ==== Proof.KernelWeights.lean ====
/-
  The weights and the bias as the node-update region finds them.

  On the host the program transposes the input weights [256, 128] and the recurrent weights [256, 64], narrows
  them (the identity on the extended reals), adds the two bias vectors and lays the sum out as a row.  Read at an
  entry: the transposed input weights at (k, c) are the input weights at (c, k), the same for the recurrent
  weights, and the bias row at (0, c) is the sum of the two bias vectors at c.
-/
import proofs.«131560_j21655225106656_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.EntryWeights

open Cert.KernelIdeal Cert.KernelIdeal.Gen Idealize.ShloMosaic Idealize.ShloMosaic.TcCoe Idealize.SL.Sem
open Idealize.ShloMosaic.StableHlo Idealize.ShloMosaic.ValueIdx

/-- The sum of the two bias vectors. -/
def biasSum (b1 b2 : FVec Ideal S256 .f32) : FVec Ideal S256 .f32 := addf b1 b2

/-- Its entry `g`. -/
def biasAt (b1 b2 : FVec Ideal S256 .f32) (g : Fin 256) : EReal := b1 (ix1 g) + b2 (ix1 g)

variable (m : (ℓ : Loc nD τ sig) → Buf (Elt Ideal) ℓ)

set_option maxHeartbeats 8000000 in
/-- Window 4's array at region entry: the input weights transposed (and narrowed). -/
theorem V_wih (c : Dev nD) :
    (V m c main_v49 : S128x256.Idx → EReal)
      = truncf .bf16 (transpose S128x256 [1, 0] (m ((c : Thread nD τ).loc main_arg5)) transposes_S256x128_S128x256_1_0 : FVec Ideal S128x256 .f32) bitsLt_bf16_f32 := by
  show StableHlo.after hostOps0 (fun b => m (c, b)) (Proc.devRef .tc main_v49) = _
  simp only [hostOps0]
  after_results_simp <;> rfl

set_option maxHeartbeats 8000000 in
/-- Window 5's array at region entry: the recurrent weights transposed (and narrowed). -/
theorem V_whh (c : Dev nD) :
    (V m c main_v51 : S64x256.Idx → EReal)
      = truncf .bf16 (transpose S64x256 [1, 0] (m ((c : Thread nD τ).loc main_arg6)) transposes_S256x64_S64x256_1_0 : FVec Ideal S64x256 .f32) bitsLt_bf16_f32 := by
  show StableHlo.after hostOps0 (fun b => m (c, b)) (Proc.devRef .tc main_v51) = _
  simp only [hostOps0]
  after_results_simp <;> rfl

set_option maxHeartbeats 8000000 in
/-- Window 6's array at region entry: the sum of the two bias vectors as a row. -/
theorem V_bias (c : Dev nD) :
    (V m c main_v53 : S1x256.Idx → EReal)
      = shapeCast S1x256 (biasSum (m ((c : Thread nD τ).loc main_arg7)) (m ((c : Thread nD τ).loc main_arg8))) shapeCasts_S256_S1x256 := by
  show StableHlo.after hostOps0 (fun b => m (c, b)) (Proc.devRef .tc main_v53) = _
  simp only [hostOps0]
  after_results_simp <;> rfl

/-- The transposed input weights at (k, c) are the input weights at (c, k). -/
theorem V_wih_apply (c : Dev nD) (k : Fin 128) (g : Fin 256) :
    (V m c main_v49 : S128x256.Idx → EReal) (ix2 k g) = ((m ((c : Thread nD τ).loc main_arg5)) : S256x128.Idx → EReal) (ix2 g k) := by
  rw [V_wih]
  exact transpose_ix2_apply _ transposes_S256x128_S128x256_1_0 k g

/-- The transposed recurrent weights at (k, c) are the recurrent weights at (c, k). -/
theorem V_whh_apply (c : Dev nD) (k : Fin 64) (g : Fin 256) :
    (V m c main_v51 : S64x256.Idx → EReal) (ix2 k g) = ((m ((c : Thread nD τ).loc main_arg6)) : S256x64.Idx → EReal) (ix2 g k) := by
  rw [V_whh]
  exact transpose_ix2_apply _ transposes_S256x64_S64x256_1_0 k g

/-- The bias row at (0, c) is the sum of the two bias vectors at c. -/
theorem V_bias_apply (c : Dev nD) (g : Fin 256) :
    (V m c main_v53 : S1x256.Idx → EReal) (ix2 (0 : Fin 1) g)
      = biasAt (m ((c : Thread nD τ).loc main_arg7)) (m ((c : Thread nD τ).loc main_arg8)) g := by
  rw [V_bias]
  exact shapeCast_a_1a_apply _ shapeCasts_S256_S1x256 0 g

end Cert.KernelIdeal.EntryWeights

end
-- ==== Proof.KernelValue.lean ====
/-
  From the blocks the kernel writes back to the whole result array.

  The region runs the kernel body at 25 grid points.  At point t every row window (the features, the two means,
  the count column, the output) stages rows 2000 t … 2000 t + 1999 of its array, and the weight and bias windows
  stage their whole arrays.  So what point t writes back is block t of ONE function of the argument arrays, the node
  update `CellSpec.result` of the features, the two means, the count, the weights and the two bias vectors; the 25
  blocks tile the 50000 rows (row p lies in block p / 2000), hence the result array ends holding that function.
-/
import proofs.«131560_j21655225106656_2_alg».proof.Proof.Gen.KernelIdeal.Value
import proofs.«131560_j21655225106656_2_alg».proof.Proof.CellSpec
import proofs.«131560_j21655225106656_2_alg».proof.Proof.Payload
import proofs.«131560_j21655225106656_2_alg».proof.Proof.KernelEntry
import proofs.«131560_j21655225106656_2_alg».proof.Proof.KernelWeights
import Idealize.ShloMosaic.Lib.Pipeline.Value
import Idealize.ShloMosaic.Lib.ValueIdx

noncomputable section

namespace Cert.KernelIdeal.CellValue

open Cert.KernelIdeal Cert.KernelIdeal.Gen Cert.KernelIdeal.Value Cert.KernelIdeal.Entry Cert.KernelIdeal.EntryWeights
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The node update of the argument arrays: what the result array ends holding. -/
def G (c : Dev nD) : S50000x128.Idx → EReal :=
  Cert.CellSpec.result (m ((c : Thread nD τ).loc main_arg0)) (mean (m ((c : Thread nD τ).loc main_arg0)) (m ((c : Thread nD τ).loc main_arg1)) (m ((c : Thread nD τ).loc main_arg2))) (mean (m ((c : Thread nD τ).loc main_arg0)) (m ((c : Thread nD τ).loc main_arg3)) (m ((c : Thread nD τ).loc main_arg4)))
    (count (m ((c : Thread nD τ).loc main_arg2)) (m ((c : Thread nD τ).loc main_arg4))) (m ((c : Thread nD τ).loc main_arg5)) (m ((c : Thread nD τ).loc main_arg6)) (m ((c : Thread nD τ).loc main_arg7)) (m ((c : Thread nD τ).loc main_arg8))

/-- The block index maps, decided over the 25 grid points: the row windows and the output sit at block (t, 0), the
    weight and bias windows at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

/-! ## Each input window's block, read off its array -/

/-- The feature window's block at point `t` is rows 2000 t … 2000 t + 1999 of the feature array. -/
theorem blk0_apply (c : Dev nD) (t : Fin cfg0.N) (r : Fin 2000) (k : Fin 128) (p : Fin 50000) (hp : p.val = 2000 * t.val + r.val) :
    (iblk m c 0 t : S2000x128.Idx → EReal) (ix2 r k) = (V m c main_arg0 : S50000x128.Idx → EReal) (ix2 p k) := by
  obtain ⟨e0, e1⟩ := (idx_facts t).1
  unfold iblk
  rw [View.read_apply]
  show (V m c main_arg0 : S50000x128.Idx → EReal) _ = _
  refine congrArg (V m c main_arg0 : S50000x128.Idx → EReal) (funext fun a => Fin.ext ?_)
  match a with
  | ⟨0, _⟩ => show win0_0.index t (0 : Fin 2) * 2000 + 1 * r.val = p.val; rw [e0, hp]; omega
  | ⟨1, _⟩ => show win0_0.index t (1 : Fin 2) * 128 + 1 * k.val = k.val; rw [e1]; omega

/-- The same rows of the first mean. -/
theorem blk1_apply (c : Dev nD) (t : Fin cfg0.N) (r : Fin 2000) (k : Fin 128) (p : Fin 50000) (hp : p.val = 2000 * t.val + r.val) :
    (iblk m c 1 t : S2000x128.Idx → EReal) (ix2 r k) = (V m c main_v18 : S50000x128.Idx → EReal) (ix2 p k) := by
  obtain ⟨e0, e1⟩ := (idx_facts t).2.1
  unfold iblk
  rw [View.read_apply]
  show (V m c main_v18 : S50000x128.Idx → EReal) _ = _
  refine congrArg (V m c main_v18 : S50000x128.Idx → EReal) (funext fun a => Fin.ext ?_)
  match a with
  | ⟨0, _⟩ => show win0_1.index t (0 : Fin 2) * 2000 + 1 * r.val = p.val; rw [e0, hp]; omega
  | ⟨1, _⟩ => show win0_1.index t (1 : Fin 2) * 128 + 1 * k.val = k.val; rw [e1]; omega

/-- The same rows of the second mean. -/
theorem blk2_apply (c : Dev nD) (t : Fin cfg0.N) (r : Fin 2000) (k : Fin 128) (p : Fin 50000) (hp : p.val = 2000 * t.val + r.val) :
    (iblk m c 2 t : S2000x128.Idx → EReal) (ix2 r k) = (V m c main_v40 : S50000x128.Idx → EReal) (ix2 p k) := by
  obtain ⟨e0, e1⟩ := (idx_facts t).2.2.1
  unfold iblk
  rw [View.read_apply]
  show (V m c main_v40 : S50000x128.Idx → EReal) _ = _
  refine congrArg (V m c main_v40 : S50000x128.Idx → EReal) (funext fun a => Fin.ext ?_)
  match a with
  | ⟨0, _⟩ => show win0_2.index t (0 : Fin 2) * 2000 + 1 * r.val = p.val; rw [e0, hp]; omega
  | ⟨1, _⟩ => show win0_2.index t (1 : Fin 2) * 128 + 1 * k.val = k.val; rw [e1]; omega

/-- The same rows of the count column. -/
theorem blk3_apply (c : Dev nD) (t : Fin cfg0.N) (r : Fin 2000) (p : Fin 50000) (hp : p.val = 2000 * t.val + r.val) :
    (iblk m c 3 t : S2000x1.Idx → EReal) (ix2 r (0 : Fin 1)) = (V m c main_v47 : S50000x1.Idx → EReal) (ix2 p (0 : Fin 1)) := by
  obtain ⟨e0, e1⟩ := (idx_facts t).2.2.2.1
  unfold iblk
  rw [View.read_apply]
  show (V m c main_v47 : S50000x1.Idx → EReal) _ = _
  refine congrArg (V m c main_v47 : S50000x1.Idx → EReal) (funext fun a => Fin.ext ?_)
  match a with
  | ⟨0, _⟩ => show win0_3.index t (0 : Fin 2) * 2000 + 1 * r.val = p.val; rw [e0, hp]; omega
  | ⟨1, _⟩ => show win0_3.index t (1 : Fin 2) * 1 + 1 * 0 = 0; rw [e1]

/-- The input-weight window stages its whole array at every point. -/
theorem blk4_apply (c : Dev nD) (t : Fin cfg0.N) (k : Fin 128) (g : Fin 256) :
    (iblk m c 4 t : S128x256.Idx → EReal) (ix2 k g) = (V m c main_v49 : S128x256.Idx → EReal) (ix2 k g) := by
  obtain ⟨e0, e1⟩ := (idx_facts t).2.2.2.2.1
  unfold iblk
  rw [View.read_apply]
  show (V m c main_v49 : S128x256.Idx → EReal) _ = _
  refine congrArg (V m c main_v49 : S128x256.Idx → EReal) (funext fun a => Fin.ext ?_)
  match a with
  | ⟨0, _⟩ => show win0_4.index t (0 : Fin 2) * 128 + 1 * k.val = k.val; rw [e0]; omega
  | ⟨1, _⟩ => show win0_4.index t (1 : Fin 2) * 256 + 1 * g.val = g.val; rw [e1]; omega

/-- The recurrent-weight window stages its whole array at every point. -/
theorem blk5_apply (c : Dev nD) (t : Fin cfg0.N) (k : Fin 64) (g : Fin 256) :
    (iblk m c 5 t : S64x256.Idx → EReal) (ix2 k g) = (V m c main_v51 : S64x256.Idx → EReal) (ix2 k g) := by
  obtain ⟨e0, e1⟩ := (idx_facts t).2.2.2.2.2.1
  unfold iblk
  rw [View.read_apply]
  show (V m c main_v51 : S64x256.Idx → EReal) _ = _
  refine congrArg (V m c main_v51 : S64x256.Idx → EReal) (funext fun a => Fin.ext ?_)
  match a with
  | ⟨0, _⟩ => show win0_5.index t (0 : Fin 2) * 64 + 1 * k.val = k.val; rw [e0]; omega
  | ⟨1, _⟩ => show win0_5.index t (1 : Fin 2) * 256 + 1 * g.val = g.val; rw [e1]; omega

/-- The bias window stages its whole row at every point. -/
theorem blk6_apply (c : Dev nD) (t : Fin cfg0.N) (g : Fin 256) :
    (iblk m c 6 t : S1x256.Idx → EReal) (ix2 (0 : Fin 1) g) = (V m c main_v53 : S1x256.Idx → EReal) (ix2 (0 : Fin 1) g) := by
  obtain ⟨e0, e1⟩ := (idx_facts t).2.2.2.2.2.2.1
  unfold iblk
  rw [View.read_apply]
  show (V m c main_v53 : S1x256.Idx → EReal) _ = _
  refine congrArg (V m c main_v53 : S1x256.Idx → EReal) (funext fun a => Fin.ext ?_)
  match a with
  | ⟨0, _⟩ => show win0_6.index t (0 : Fin 2) * 1 + 1 * 0 = 0; rw [e0]
  | ⟨1, _⟩ => show win0_6.index t (1 : Fin 2) * 256 + 1 * g.val = g.val; rw [e1]; omega

/-! ## What a grid point writes back -/

/-- The node update depends on its row arguments only through their values. -/
theorem node_congr {x x' a a' b b' : Fin 128 → EReal} {n n' : EReal} {wih wih' : Fin 256 → Fin 128 → EReal}
    {whh whh' : Fin 256 → Fin 64 → EReal} {bias bias' : Fin 256 → EReal} (hx : x = x') (ha : a = a') (hb : b = b') (hn : n = n')
    (hwih : wih = wih') (hwhh : whh = whh') (hbias : bias = bias') (q : Fin 128) :
    Cert.CellSpec.node x a b n wih whh bias q = Cert.CellSpec.node x' a' b' n' wih' whh' bias' q := by
  subst hx ha hb hn hwih hwhh hbias; rfl

set_option maxHeartbeats 800000 in
/-- Entry (r, q) of the block the body stores at point `t` is the node update at node 2000 t + r, column q. -/
theorem pay_at (c : Dev nD) (t : Fin cfg0.N) (r : Fin 2000) (q : Fin 128) (p : Fin 50000) (hp : p.val = 2000 * t.val + r.val) :
    k0_pay1 (F := Ideal) (iblk m c 0 t) (iblk m c 1 t) (iblk m c 2 t) (iblk m c 3 t) (iblk m c 4 t) (iblk m c 5 t) (iblk m c 6 t) (ix2 r q)
      = G m c (ix2 p q) := by
  refine (Cert.KernelIdeal.Payload.pay_apply (iblk m c 0 t) (iblk m c 1 t) (iblk m c 2 t) (iblk m c 3 t) (iblk m c 4 t) (iblk m c 5 t)
    (iblk m c 6 t) r q).trans ?_
  show _ = Cert.CellSpec.resultAt (m ((c : Thread nD τ).loc main_arg0)) (mean (m ((c : Thread nD τ).loc main_arg0)) (m ((c : Thread nD τ).loc main_arg1)) (m ((c : Thread nD τ).loc main_arg2))) (mean (m ((c : Thread nD τ).loc main_arg0)) (m ((c : Thread nD τ).loc main_arg3)) (m ((c : Thread nD τ).loc main_arg4)))
    (count (m ((c : Thread nD τ).loc main_arg2)) (m ((c : Thread nD τ).loc main_arg4))) (m ((c : Thread nD τ).loc main_arg5)) (m ((c : Thread nD τ).loc main_arg6)) (m ((c : Thread nD τ).loc main_arg7)) (m ((c : Thread nD τ).loc main_arg8)) p q
  unfold Cert.CellSpec.resultAt
  refine node_congr ?_ ?_ ?_ ?_ ?_ ?_ ?_ q
  · exact funext fun k => (blk0_apply m c t r k p hp).trans (congrFun (V_main_arg0 m c) (ix2 p k))
  · exact funext fun k => (blk1_apply m c t r k p hp).trans (congrFun (V_mean0 m c) (ix2 p k))
  · exact funext fun k => (blk2_apply m c t r k p hp).trans (congrFun (V_mean1 m c) (ix2 p k))
  · exact (blk3_apply m c t r p hp).trans (V_count_apply m c p)
  · exact funext fun g => funext fun k => (blk4_apply m c t k g).trans (V_wih_apply m c k g)
  · exact funext fun g => funext fun k => (blk5_apply m c t k g).trans (V_whh_apply m c k g)
  · exact funext fun g => (blk6_apply m c t g).trans (V_bias_apply m c g)

set_option maxHeartbeats 800000 in
/-- What point `t` writes back is block `t` of the node update of the argument arrays. -/
theorem flushed_eq (c : Dev nD) (t : Fin cfg0.N) :
    (dats m 0 c).flushed 7 t = ((cfg0.win 7).blk t).view.read (Elt Ideal) (G m c) := by
  rw [flushed7]
  unfold out0_7
  rw [View.canon_unit_zero hz]
  simp only [View.ld_unit_zero (S := S2000x128) hz, View.ld_unit_zero (S := S2000x1) hz, View.ld_unit_zero (S := S128x256) hz,
    View.ld_unit_zero (S := S64x256) hz, View.ld_unit_zero (S := S1x256) hz]
  obtain ⟨-, -, -, -, -, -, -, e0, e1⟩ := idx_facts t
  have hN : cfg0.N = 25 := N_0
  have htl : t.val < 25 := by have := t.isLt; omega
  funext j
  have hr : (j 0).val < 2000 := (j 0).isLt
  have hq : (j 1).val < 128 := (j 1).isLt
  rw [View.read_apply]
  have hR : ((cfg0.win 7).blk t).view.emb j = ix2 (⟨2000 * t.val + (j 0).val, by omega⟩ : Fin 50000) (⟨(j 1).val, hq⟩ : Fin 128) := by
    funext a
    apply Fin.ext
    match a with
    | ⟨0, _⟩ => show win0_7.index t (0 : Fin 2) * 2000 + 1 * (j 0).val = 2000 * t.val + (j 0).val; rw [e0]; omega
    | ⟨1, _⟩ => show win0_7.index t (1 : Fin 2) * 128 + 1 * (j 1).val = (j 1).val; rw [e1]; omega
  rw [hR]
  refine Eq.trans ?_ (pay_at m c t ⟨(j 0).val, hr⟩ ⟨(j 1).val, hq⟩ _ rfl)
  show k0_pay1 (F := Ideal) _ _ _ _ _ _ _ _ = k0_pay1 (F := Ideal) _ _ _ _ _ _ _ _
  refine congrArg (k0_pay1 (F := Ideal) (iblk m c 0 t) (iblk m c 1 t) (iblk m c 2 t) (iblk m c 3 t) (iblk m c 4 t) (iblk m c 5 t) (iblk m c 6 t))
    (funext fun a => Fin.ext ?_)
  match a with
  | ⟨0, _⟩ => rfl
  | ⟨1, _⟩ => rfl

/-! ## The blocks tile the array -/

/-- An index of the result array is in point `t`'s block iff each coordinate is in the block's range on its axis. -/
theorem mem_blk (t : Fin cfg0.N) (i : S50000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v54).slice (win0_7.rect t)).set ↔ _
  rw [View.set_slice_whole, Rect.mem_set_unit]
  exact Iff.rfl

/-- Row p of the result lies in the block of point p / 2000. -/
theorem cover (i : S50000x128.Idx) : ∃ t : Fin cfg0.N, (cfg0.win 7).flush t = true ∧ i ∈ ((cfg0.win 7).blk t).view.set := by
  have hi0 : (i 0).val < 50000 := (i 0).isLt
  have hi1 : (i 1).val < 128 := (i 1).isLt
  have hN : cfg0.N = 25 := N_0
  have ht : (i 0).val / 2000 < cfg0.N := by rw [hN]; omega
  obtain ⟨-, -, -, -, -, -, -, e0, e1⟩ := idx_facts ⟨(i 0).val / 2000, ht⟩
  refine ⟨⟨(i 0).val / 2000, ht⟩, flush0_7 _, ?_⟩
  rw [mem_blk]
  intro a
  match a with
  | ⟨0, _⟩ =>
    show win0_7.index ⟨(i 0).val / 2000, ht⟩ (0 : Fin 2) * 2000 ≤ (i 0).val ∧ (i 0).val < win0_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_7.index ⟨(i 0).val / 2000, ht⟩ (1 : Fin 2) * 128 ≤ (i 1).val ∧ (i 1).val < win0_7.index ⟨(i 0).val / 2000, ht⟩ (1 : Fin 2) * 128 + 128
    rw [e1]; omega

/-- The result array after the run is the node update of the argument arrays. -/
theorem final (c : Dev nD) : (dats m 0 c).arrAt 7 cfg0.N = G m c :=
  (dats m 0 c).arrAt_eq_of_cover 7 (G m c) (fun t _ => flushed_eq m c t) cover

/-! ## The run, read -/

/-- Every weakly fair execution of the kernel's program ends with the result array at the node update of the argument
    arrays and the arguments unchanged. -/
theorem run : θ_run defs (onTc (τ := τ) (main (F := Ideal))) ⟨m, fun _ => 0, ρ⟩ fun r => ∀ c : Dev nD,
      r.2.mem ((c : Thread nD τ).loc main_v54) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelIdeal.CellValue

end
-- ==== Proof.RefValue.lean ====
/-
  The reference's result is the node update of the argument arrays.

  The reference computes the two neighbourhood means and the active counts by the same gather and scatter-add
  chain as the kernel's program (kept here as the opaque arrays that chain produces), then for every node the
  message row, the gates `x · W_ihᵀ + b_ih + h · W_hhᵀ + b_hh`, and the cell step with the logistic function spelt
  out as 1 / (1 + e^(-z)).  Read at entry (p, q) this is `CellSpec.resultAt`: the two host products are plain
  sums, the spelt-out quotient is the logistic function on every extended real, and the two bias vectors may be
  added first because addition of extended reals is commutative and associative.

  The steps, each read at one entry (p, c): the message row (the sum of the two means over the node's count, the
  counts made a column and repeated along the columns); the two products (sums over the shared extent, the
  transposed weights read back at their own entries); the two bias rows repeated down the rows; the gate
  pre-activation, where the reference's ((x·W + b₁) + h·W') + b₂ is regrouped as x·W + h·W' + (b₁ + b₂); the three
  logistic gates and the candidate, each a band of 64 columns of the pre-activations; the new cell and hidden
  states; and the result, the hidden columns followed by the cell columns, a column below 64 read from the first
  piece and a column from 64 on from the second.
-/
import proofs.«131560_j21655225106656_2_alg».proof.Proof.RefReadP
import proofs.«131560_j21655225106656_2_alg».proof.Proof.CellSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-! ## Two matrices side by side along the columns -/

/-- Two matrices of R rows side by side: a column that is column k of the first reads the first matrix. -/
theorem concat2_apply_left {α : Type} {R K1 K2 C : Nat}
    (h : Shape.Concatenates [(⟨2, ![R, K1]⟩ : Shape), ⟨2, ![R, K2]⟩] ⟨2, ![R, C]⟩ (1 : Fin 2))
    (y1 : (⟨2, ![R, K1]⟩ : Shape).Idx → α) (y2 : (⟨2, ![R, K2]⟩ : Shape).Idx → α)
    (r : Fin R) (q : Fin C) (k : Fin K1) (hk : k.val = q.val) :
    concatenate ⟨2, ![R, C]⟩ 1 [⟨_, y1⟩, ⟨_, y2⟩] h (ix2 r q) = y1 (ix2 r k) :=
  concatenate_pair_apply_left (t := ⟨2, ![R, C]⟩) (1 : Fin 2) y1 y2 h (ix2 r q) rfl (ix2 r k)
    (fun b => match b with
      | ⟨0, _⟩ => rfl
      | ⟨1, _⟩ => hk)

/-- Two matrices of R rows side by side: a column that is the first extent plus k reads column k of the second. -/
theorem concat2_apply_right {α : Type} {R K1 K2 C : Nat}
    (h : Shape.Concatenates [(⟨2, ![R, K1]⟩ : Shape), ⟨2, ![R, K2]⟩] ⟨2, ![R, C]⟩ (1 : Fin 2))
    (y1 : (⟨2, ![R, K1]⟩ : Shape).Idx → α) (y2 : (⟨2, ![R, K2]⟩ : Shape).Idx → α)
    (r : Fin R) (q : Fin C) (k : Fin K2) (hk : k.val + K1 = q.val) :
    concatenate ⟨2, ![R, C]⟩ 1 [⟨_, y1⟩, ⟨_, y2⟩] h (ix2 r q) = y2 (ix2 r k) :=
  concatenate_pair_apply_right (t := ⟨2, ![R, C]⟩) (1 : Fin 2) y1 y2 h (ix2 r q) rfl rfl (ix2 r k)
    (fun b hb => match b, hb with
      | ⟨0, _⟩, _ => rfl
      | ⟨1, _⟩, hb => absurd rfl hb)
    (by show k.val + K1 = q.val; exact hk)

/-! ## Two facts about the extended reals -/

/-- The quotient 1 / (1 + e^(-z)), with 1 written as its float word, is the logistic function. -/
theorem logistic_spelt (z : EReal) :
    Ideal.div (Ideal.ofBits .f32 0x3F800000#32) (Ideal.ofBits .f32 0x3F800000#32 + Ideal.exp (-z))
      = Ideal.logistic z := by
  rw [Cert.CellSpec.one_word]
  rfl

/-- Two summands added one after the other may be added to each other first. -/
theorem add_regroup (s u t v : EReal) : s + u + t + v = s + t + (u + v) :=
  (add_assoc (s + u) t v).trans (add_add_add_comm s u t v)

/-! ## The reference's stages at one entry -/

section stages

variable (x0 : FVec Ideal S50000x128 .f32) (x1 x2 x3 x4 : IVec S800000 32) (x5 : FVec Ideal S256x128 .f32)
  (x6 : FVec Ideal S256x64 .f32) (x7 x8 : FVec Ideal S256 .f32)

/-- Row p of the messages, as the specification writes it from the two means and the counts. -/
abbrev msgAt (p : Fin 50000) : Fin 128 → EReal :=
  Cert.CellSpec.msg (fun k => val_main_v18 (F := Ideal) x0 x1 x2 (ix2 p k))
    (fun k => val_main_v40 (F := Ideal) x0 x3 x4 (ix2 p k)) (val_main_v46 (F := Ideal) x2 x4 (ix1 p))

/-- Row p of the gate pre-activations, as the specification writes it from the arrays. -/
abbrev gateAt (p : Fin 50000) : Fin 256 → EReal :=
  Cert.CellSpec.gate (fun k => x0 (ix2 p k)) (fun k => msgAt x0 x1 x2 x3 x4 p (Cert.CellSpec.lo k))
    (fun c k => x5 (ix2 c k)) (fun c k => x6 (ix2 c k)) (fun c => x7 (ix1 c) + x8 (ix1 c))

/-- The message: the sum of the two means over the count of the node, the count repeated along the columns. -/
theorem msg_apply (p : Fin 50000) (k : Fin 128) :
    val_main_v50 (F := Ideal) x0 x1 x2 x3 x4 (ix2 p k) = msgAt x0 x1 x2 x3 x4 p k := by
  have e : idx_main_v47 (idx_main_v49 (ix2 p k)) = ix1 p :=
    funext fun a => Fin.ext (by match a with | ⟨0, _⟩ => rfl)
  rw [val_main_v50_apply, val_main_v48_apply, val_main_v49_apply, val_main_v47_apply, e]
  rfl

/-- The features against the input weights: the transposed weights are read back at their own entries. -/
theorem featProd_apply (p : Fin 50000) (c : Fin 256) :
    val_main_v54 (F := Ideal) x0 x5 (ix2 p c) = ∑ k : Fin 128, x0 (ix2 p k) * x5 (ix2 c k) := by
  refine (val_main_v54_apply x0 x5 (ix2 p c)).trans (Finset.sum_congr rfl fun k _ => ?_)
  have e1 : lidx_main_v54 (ix2 p c) k = ix2 p k :=
    funext fun a => Fin.ext (by match a with | ⟨0, _⟩ => rfl | ⟨1, _⟩ => rfl)
  have e2 : idx_main_v53 (ridx_main_v54 (ix2 p c) k) = ix2 c k :=
    funext fun a => Fin.ext (by match a with | ⟨0, _⟩ => rfl | ⟨1, _⟩ => rfl)
  rw [val_main_v53_apply, e1, e2]

/-- The incoming hidden state (the first 64 message columns) against the recurrent weights. -/
theorem hidProd_apply (p : Fin 50000) (c : Fin 256) :
    val_main_v59 (F := Ideal) x0 x1 x2 x3 x4 x6 (ix2 p c)
      = ∑ k : Fin 64, msgAt x0 x1 x2 x3 x4 p (Cert.CellSpec.lo k) * x6 (ix2 c k) := by
  refine (val_main_v59_apply x0 x1 x2 x3 x4 x6 (ix2 p c)).trans (Finset.sum_congr rfl fun k _ => ?_)
  have e1 : idx_main_v51 (lidx_main_v59 (ix2 p c) k) = ix2 p (Cert.CellSpec.lo k) :=
    funext fun a => Fin.ext (by match a with | ⟨0, _⟩ => rfl | ⟨1, _⟩ => rfl)
  have e2 : idx_main_v58 (ridx_main_v59 (ix2 p c) k) = ix2 c k :=
    funext fun a => Fin.ext (by match a with | ⟨0, _⟩ => rfl | ⟨1, _⟩ => rfl)
  rw [val_main_v51_apply, val_main_v58_apply, e1, e2, msg_apply]

/-- The first bias vector, made a row and repeated down the rows. -/
theorem bias1_apply (p : Fin 50000) (c : Fin 256) : val_main_v56 (F := Ideal) x7 (ix2 p c) = x7 (ix1 c) := by
  have e : idx_main_v55 (idx_main_v56 (ix2 p c)) = ix1 c :=
    funext fun a => Fin.ext (by match a with | ⟨0, _⟩ => rfl)
  rw [val_main_v56_apply, val_main_v55_apply, e]

/-- The second bias vector, made a row and repeated down the rows. -/
theorem bias2_apply (p : Fin 50000) (c : Fin 256) : val_main_v62 (F := Ideal) x8 (ix2 p c) = x8 (ix1 c) := by
  have e : idx_main_v61 (idx_main_v62 (ix2 p c)) = ix1 c :=
    funext fun a => Fin.ext (by match a with | ⟨0, _⟩ => rfl)
  rw [val_main_v62_apply, val_main_v61_apply, e]

/-- The gate pre-activation: ((x·W + b₁) + h·W') + b₂ regrouped as x·W + h·W' + (b₁ + b₂). -/
theorem gate_apply (p : Fin 50000) (c : Fin 256) :
    val_main_v63 (F := Ideal) x0 x1 x2 x3 x4 x5 x6 x7 x8 (ix2 p c) = gateAt x0 x1 x2 x3 x4 x5 x6 x7 x8 p c := by
  rw [val_main_v63_apply, val_main_v60_apply, val_main_v57_apply, featProd_apply, hidProd_apply, bias1_apply,
    bias2_apply]
  exact add_regroup _ _ _ _

/-- The forget gate: the logistic function, spelt out, of the band of pre-activations from column 64. -/
theorem forget_apply (p : Fin 50000) (j : Fin 64) :
    val_main_v73 (F := Ideal) x0 x1 x2 x3 x4 x5 x6 x7 x8 (ix2 p j)
      = Ideal.logistic (gateAt x0 x1 x2 x3 x4 x5 x6 x7 x8 p (Cert.CellSpec.gcol 64 (by decide) j)) := by
  have e : idx_main_v65 (ix2 p j) = ix2 p (Cert.CellSpec.gcol 64 (by decide) j) :=
    funext fun a => Fin.ext (by match a with | ⟨0, _⟩ => rfl | ⟨1, _⟩ => rfl)
  rw [val_main_v73_apply, val_main_v72_apply, val_main_cst_14_apply, val_main_v71_apply, val_main_v70_apply,
    val_main_cst_13_apply, val_main_v69_apply, val_main_v68_apply, val_main_v65_apply, e, gate_apply]
  exact logistic_spelt _

/-- The input gate: the logistic function, spelt out, of the band of pre-activations from column 0. -/
theorem input_apply (p : Fin 50000) (j : Fin 64) :
    val_main_v80 (F := Ideal) x0 x1 x2 x3 x4 x5 x6 x7 x8 (ix2 p j)
      = Ideal.logistic (gateAt x0 x1 x2 x3 x4 x5 x6 x7 x8 p (Cert.CellSpec.gcol 0 (by decide) j)) := by
  have e : idx_main_v64 (ix2 p j) = ix2 p (Cert.CellSpec.gcol 0 (by decide) j) :=
    funext fun a => Fin.ext (by match a with | ⟨0, _⟩ => rfl | ⟨1, _⟩ => exact (Nat.zero_add j.val).symm)
  rw [val_main_v80_apply, val_main_v79_apply, val_main_cst_16_apply, val_main_v78_apply, val_main_v77_apply,
    val_main_cst_15_apply, val_main_v76_apply, val_main_v75_apply, val_main_v64_apply, e, gate_apply]
  exact logistic_spelt _

/-- The output gate: the logistic function, spelt out, of the band of pre-activations from column 192. -/
theorem output_apply (p : Fin 50000) (j : Fin 64) :
    val_main_v89 (F := Ideal) x0 x1 x2 x3 x4 x5 x6 x7 x8 (ix2 p j)
      = Ideal.logistic (gateAt x0 x1 x2 x3 x4 x5 x6 x7 x8 p (Cert.CellSpec.gcol 192 (by decide) j)) := by
  have e : idx_main_v67 (ix2 p j) = ix2 p (Cert.CellSpec.gcol 192 (by decide) j) :=
    funext fun a => Fin.ext (by match a with | ⟨0, _⟩ => rfl | ⟨1, _⟩ => rfl)
  rw [val_main_v89_apply, val_main_v88_apply, val_main_cst_18_apply, val_main_v87_apply, val_main_v86_apply,
    val_main_cst_17_apply, val_main_v85_apply, val_main_v84_apply, val_main_v67_apply, e, gate_apply]
  exact logistic_spelt _

/-- The candidate: the hyperbolic tangent of the band of pre-activations from column 128. -/
theorem candidate_apply (p : Fin 50000) (j : Fin 64) :
    val_main_v81 (F := Ideal) x0 x1 x2 x3 x4 x5 x6 x7 x8 (ix2 p j)
      = Ideal.tanh (gateAt x0 x1 x2 x3 x4 x5 x6 x7 x8 p (Cert.CellSpec.gcol 128 (by decide) j)) := by
  have e : idx_main_v66 (ix2 p j) = ix2 p (Cert.CellSpec.gcol 128 (by decide) j) :=
    funext fun a => Fin.ext (by match a with | ⟨0, _⟩ => rfl | ⟨1, _⟩ => rfl)
  rw [val_main_v81_apply, val_main_v66_apply, e, gate_apply]
  rfl

/-- The incoming cell state: the last 64 message columns. -/
theorem cellIn_apply (p : Fin 50000) (j : Fin 64) :
    val_main_v52 (F := Ideal) x0 x1 x2 x3 x4 (ix2 p j) = msgAt x0 x1 x2 x3 x4 p (Cert.CellSpec.hi j) := by
  have e : idx_main_v52 (ix2 p j) = ix2 p (Cert.CellSpec.hi j) :=
    funext fun a => Fin.ext (by match a with | ⟨0, _⟩ => rfl | ⟨1, _⟩ => rfl)
  rw [val_main_v52_apply, e, msg_apply]

/-- The new cell state: forget · incoming cell + input · candidate. -/
theorem cell_apply (p : Fin 50000) (j : Fin 64) :
    val_main_v83 (F := Ideal) x0 x1 x2 x3 x4 x5 x6 x7 x8 (ix2 p j)
      = Cert.CellSpec.cell (gateAt x0 x1 x2 x3 x4 x5 x6 x7 x8 p)
          (fun j => msgAt x0 x1 x2 x3 x4 p (Cert.CellSpec.hi j)) j := by
  rw [val_main_v83_apply, val_main_v74_apply, val_main_v82_apply, forget_apply, cellIn_apply, input_apply,
    candidate_apply]
  rfl

/-- The new hidden state: output · tanh of the new cell state. -/
theorem hidden_apply (p : Fin 50000) (j : Fin 64) :
    val_main_v91 (F := Ideal) x0 x1 x2 x3 x4 x5 x6 x7 x8 (ix2 p j)
      = Cert.CellSpec.hidden (gateAt x0 x1 x2 x3 x4 x5 x6 x7 x8 p)
          (fun j => msgAt x0 x1 x2 x3 x4 p (Cert.CellSpec.hi j)) j := by
  rw [val_main_v91_apply, val_main_v90_apply, output_apply, cell_apply]
  rfl

end stages

/-- Entry (p, q) of the reference's result is the node update at node p, column q. -/
theorem ref_apply (x0 : FVec Ideal S50000x128 .f32) (x1 x2 x3 x4 : IVec S800000 32) (x5 : FVec Ideal S256x128 .f32)
    (x6 : FVec Ideal S256x64 .f32) (x7 x8 : FVec Ideal S256 .f32) (p : Fin 50000) (q : Fin 128) :
    val_main_v92 (F := Ideal) x0 x1 x2 x3 x4 x5 x6 x7 x8 (ix2 p q)
      = Cert.CellSpec.resultAt x0 (val_main_v18 (F := Ideal) x0 x1 x2) (val_main_v40 (F := Ideal) x0 x3 x4)
          (val_main_v46 (F := Ideal) x2 x4) x5 x6 x7 x8 p q := by
  have hspec : Cert.CellSpec.resultAt x0 (val_main_v18 (F := Ideal) x0 x1 x2) (val_main_v40 (F := Ideal) x0 x3 x4)
      (val_main_v46 (F := Ideal) x2 x4) x5 x6 x7 x8 p q
      = Cert.CellSpec.outRow (gateAt x0 x1 x2 x3 x4 x5 x6 x7 x8 p)
          (fun j => msgAt x0 x1 x2 x3 x4 p (Cert.CellSpec.hi j)) q := rfl
  rw [hspec]
  unfold val_main_v92
  rcases Cert.CellSpec.col_cases q with ⟨j, rfl⟩ | ⟨j, rfl⟩
  · rw [Cert.CellSpec.outRow_lo]
    refine (concat2_apply_left _ _ _ p (Cert.CellSpec.lo j) j rfl).trans ?_
    exact hidden_apply x0 x1 x2 x3 x4 x5 x6 x7 x8 p j
  · rw [Cert.CellSpec.outRow_hi]
    refine (concat2_apply_right _ _ _ p (Cert.CellSpec.hi j) j (Nat.add_comm j.val 64)).trans ?_
    exact cell_apply x0 x1 x2 x3 x4 x5 x6 x7 x8 p j

/-- The reference's result array is the node update of the argument arrays. -/
theorem ref_eq (x0 : FVec Ideal S50000x128 .f32) (x1 x2 x3 x4 : IVec S800000 32) (x5 : FVec Ideal S256x128 .f32)
    (x6 : FVec Ideal S256x64 .f32) (x7 x8 : FVec Ideal S256 .f32) :
    val_main_v92 (F := Ideal) x0 x1 x2 x3 x4 x5 x6 x7 x8
      = Cert.CellSpec.result x0 (val_main_v18 (F := Ideal) x0 x1 x2) (val_main_v40 (F := Ideal) x0 x3 x4)
          (val_main_v46 (F := Ideal) x2 x4) x5 x6 x7 x8 := by
  funext i
  rw [eq_ix2 i]
  exact ref_apply x0 x1 x2 x3 x4 x5 x6 x7 x8 (i 0) (i 1)

end Cert.ReferenceIdeal.RefValue

end
-- ==== Proof.SharedPrefix.lean ====
/-
  The two programs compute the neighbourhood means and the active count by the same host operations.

  The kernel's program and the reference print the same gather, scatter-add, clamp, compare and divide for the
  mean of the source features along each edge type and for the count of edge types that deliver a message.  So the
  kernel side's `mean` and `count` and the reference's stages for those values are the same functions of the
  argument arrays: the two texts differ only in which program's copy of each shape and dimension record they name,
  and the copies have the same fields.  Nothing of the gather or the scatter-add is opened.
-/
import proofs.«131560_j21655225106656_2_alg».proof.Proof.KernelEntry
import proofs.«131560_j21655225106656_2_alg».proof.Proof.RefReadP

noncomputable section

namespace Cert.SharedPrefix

open Idealize.ShloMosaic

/-- The reference's mean along edge type 0 is the kernel side's `mean` of the same arrays. -/
theorem mean0_eq (x0 : FVec Ideal Cert.ReferenceIdeal.S50000x128 .f32) (x1 x2 : IVec Cert.ReferenceIdeal.S800000 32) :
    Cert.ReferenceIdeal.Read.val_main_v18 (F := Ideal) x0 x1 x2 = Cert.KernelIdeal.Entry.mean x0 x1 x2 := rfl

/-- The reference's mean along edge type 1 is the kernel side's `mean` of the same arrays. -/
theorem mean1_eq (x0 : FVec Ideal Cert.ReferenceIdeal.S50000x128 .f32) (x3 x4 : IVec Cert.ReferenceIdeal.S800000 32) :
    Cert.ReferenceIdeal.Read.val_main_v40 (F := Ideal) x0 x3 x4 = Cert.KernelIdeal.Entry.mean x0 x3 x4 := rfl

/-- The reference's active count is the kernel side's `count` of the same arrays. -/
theorem count_eq (x2 x4 : IVec Cert.ReferenceIdeal.S800000 32) :
    Cert.ReferenceIdeal.Read.val_main_v46 (F := Ideal) x2 x4 = Cert.KernelIdeal.Entry.count x2 x4 := rfl

end Cert.SharedPrefix

end
-- ==== Proof.lean ====
/-
  The certificate's five claims for the graph node-update kernel.

  The kernel's program and the reference both compute, for each of 50000 nodes, one cell step of a long short-term
  memory unit whose hidden and cell inputs are the two halves of the node's message row (the sum of the two
  neighbourhood means over the count of active edge types) and whose data input is the node's feature row
  (`CellSpec`).  The kernel's program ends with its result array at `CellSpec.result` of the argument arrays, the
  shared means and the count (`CellValue.run`: the blocks written back at the 25 grid points tile the array and
  each is a block of that function); the reference's result term is the same function (`RefValue.ref_eq`), the
  means and the count being the same host computation in both programs (`SharedPrefix`).  The two differ in the
  order in which the two bias vectors join the gates, which is immaterial on the extended reals, in the logistic
  function being one operation on one side and spelt out on the other, and in the tiling.  No step uses that the
  inputs are finite.  The frames are the generated frame runs; the idealization rewrote nothing, so it is
  preserved trivially.
-/
import proofs.«131560_j21655225106656_2_alg».proof.Defs
import proofs.«131560_j21655225106656_2_alg».proof.Proof.Gen.Kernel
import proofs.«131560_j21655225106656_2_alg».proof.Proof.Gen.Kernel.Skeleton
import proofs.«131560_j21655225106656_2_alg».proof.Proof.Gen.Kernel.Launch
import proofs.«131560_j21655225106656_2_alg».proof.Proof.Gen.Kernel.Points
import proofs.«131560_j21655225106656_2_alg».proof.Proof.Gen.Kernel.Frame
import proofs.«131560_j21655225106656_2_alg».proof.Proof.Gen.KernelIdeal
import proofs.«131560_j21655225106656_2_alg».proof.Proof.Gen.KernelIdeal.Skeleton
import proofs.«131560_j21655225106656_2_alg».proof.Proof.Gen.KernelIdeal.Launch
import proofs.«131560_j21655225106656_2_alg».proof.Proof.Gen.KernelIdeal.Points
import proofs.«131560_j21655225106656_2_alg».proof.Proof.Gen.KernelIdeal.Frame
import proofs.«131560_j21655225106656_2_alg».proof.Proof.Gen.ReferenceIdeal
import proofs.«131560_j21655225106656_2_alg».proof.Proof.Gen.Pre_finite_inputs
import proofs.«131560_j21655225106656_2_alg».proof.Proof.Gen.KernelIdeal.Value
import proofs.«131560_j21655225106656_2_alg».proof.Proof.RefReadP
import Idealize.ShloMosaic.Adequacy
import Idealize.ShloMosaic.Init
import proofs.«131560_j21655225106656_2_alg».proof.Proof.KernelValue
import proofs.«131560_j21655225106656_2_alg».proof.Proof.RefValue
import proofs.«131560_j21655225106656_2_alg».proof.Proof.SharedPrefix

noncomputable section

namespace Cert.Proof

open Idealize.ShloMosaic Idealize.ShloMosaic.TcCoe Idealize.SL.Sem

/-- The word-level kernel program runs and leaves its arguments unchanged: the generated frame. -/
theorem frame_k [Cert.Kernel.Facts] [Cert.Pre_finite_inputs.Facts] : Cert.frame_Kernel := fun m ρ _ => Cert.Kernel.Gen.frame m ρ

/-- So does the idealized kernel program. -/
theorem frame_ki [Cert.KernelIdeal.Facts] [Cert.Pre_finite_inputs.Facts] : Cert.frame_KernelIdeal := fun m ρ _ => Cert.KernelIdeal.Gen.frame m ρ

/-- The reference runs and leaves its arguments unchanged: its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- From memories that agree on the arguments both programs end with the node update of the argument arrays. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.CellValue.G m c, Cert.KernelIdeal.CellValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v92_eq, Cert.ReferenceIdeal.RefValue.ref_eq, Cert.SharedPrefix.mean0_eq,
    Cert.SharedPrefix.mean1_eq, Cert.SharedPrefix.count_eq, h0, h1, h2, h3, h4, h5, h6, h7, h8]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
